-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S100000x128 .f32) (main_arg3 : FVec F S128 .f32) (main_arg4 : FVec F S128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128 : Shape := ⟨1, ![128]⟩
abbrev S128x128 : Shape := ⟨2, ![128, 128]⟩
abbrev S5000x128 : Shape := ⟨2, ![5000, 128]⟩
abbrev S5000 : Shape := ⟨1, ![5000]⟩
abbrev S5000x1 : Shape := ⟨2, ![5000, 1]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩

abbrev nBuf : Space → Nat
  | .hbm => 44
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S100000x128, .bf16⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .bf16⟩
  | .hbm, ⟨22, _⟩ => ⟨S600000x128, .f32⟩
  | .hbm, ⟨23, _⟩ => ⟨S_, .f32⟩
  | .hbm, ⟨24, _⟩ => ⟨S100000x128, .f32⟩
  | .hbm, ⟨25, _⟩ => ⟨S600000x1, .i32⟩
  | .hbm, ⟨26, _⟩ => ⟨S100000x128, .f32⟩
  | .hbm, ⟨27, _⟩ => ⟨S_, .i32⟩
  | .hbm, ⟨28, _⟩ => ⟨S600000, .i32⟩
  | .hbm, ⟨29, _⟩ => ⟨S_, .i32⟩
  | .hbm, ⟨30, _⟩ => ⟨S100000, .i32⟩
  | .hbm, ⟨31, _⟩ => ⟨S600000x1, .i32⟩
  | .hbm, ⟨32, _⟩ => ⟨S100000, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S128x128, .f32⟩
  | .hbm, ⟨42, _⟩ => ⟨S128x128, .f32⟩
  | .hbm, ⟨43, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128, .f32⟩
  | .local _ .vmem, ⟨5, _⟩ => ⟨S128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bitsLt_bf16_f32 : FTy.bits .bf16 < FTy.bits .f32
  packedbf16_S5000x128_S5000x128_0_0 : (Rect.unit (s := S5000x128) ![0, 0] S5000x128.size inb_S5000x128_S5000x128_0_0).PackedRows (EltTy.packing .bf16)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128 : Shape := ⟨1, ![128]⟩
abbrev S128x128 : Shape := ⟨2, ![128, 128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S100000, .f32⟩
  | .hbm, ⟨10, _⟩ => ⟨S100000x1, .f32⟩
  | .hbm, ⟨11, _⟩ => ⟨S_, .f32⟩
  | .hbm, ⟨12, _⟩ => ⟨S100000x1, .f32⟩
  | .hbm, ⟨13, _⟩ => ⟨S100000x1, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x1, .f32⟩
  | .hbm, ⟨27, _⟩ => ⟨S100000x1, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x600000, .i32⟩
  | .hbm, ⟨42, _⟩ => ⟨S600000, .i32⟩
  | .hbm, ⟨43, _⟩ => ⟨S1x600000, .i32⟩
  | .hbm, ⟨44, _⟩ => ⟨S600000, .i32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | .hbm, ⟨58, _⟩ => ⟨S_, .f32⟩
  | .hbm, ⟨59, _⟩ => ⟨S600000, .f32⟩
  | .hbm, ⟨60, _⟩ => ⟨S_, .f32⟩
  | .hbm, ⟨61, _⟩ => ⟨S100000, .f32⟩
  | .hbm, ⟨62, _⟩ => ⟨S600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  transposes_S128x128_S128x128_1_0 : S128x128.Transposes [1, 0] S128x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result array named.

  @main is two kernel regions with a stretch of host operations between them.  Every weakly fair execution ends
  with each unscoped buffer at the contents the last region leaves: the result array is then the last region's
  output array after its write-backs, the arguments as launched.  The contents at each boundary are a fold through
  @main: the launch memory, region 0's arrays after its write-backs, the host operations applied to those, region 1's
  arrays after its write-backs.
-/
import proofs.«163582_j48747878810305_2_alg».proof.Proof.Gen.KernelIdeal.Frame
import proofs.«163582_j48747878810305_2_alg».proof.Proof.Gen.KernelIdeal.Launch
import proofs.«163582_j48747878810305_2_alg».proof.Proof.Gen.KernelIdeal.Skeleton
import proofs.«163582_j48747878810305_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the arguments as launched. -/
theorem run_named : θ_run defs (onTc (τ := τ) (main (F := F))) ⟨m, fun _ => 0, ρ⟩ (fun r => ∀ c : Dev nD,
      r.2.mem ((c.tc : Thread nD τ).loc main_v28) = W3 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v28 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

/-- The last boundary's contents at the result array: region 1's output array after its write-backs. -/
theorem result_eq (c : Dev nD) :
    W3 m ρ c (Proc.devRef .tc main_v28) = (dat1 (V2 m ρ) c).arrAt 6 cfg1.N :=
  W3_arr m ρ c 6

end Cert.KernelIdeal.RunValue

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KernelCombine.lean ====
/-
  What the second kernel's body computes from its blocks, entry by entry.

  The body multiplies a block of 5000 rows of the aggregate by a 128 × 128 weight and a block of 5000 rows of the
  stage's result by a second weight, each product accumulated into zeros, scales the first product's row `p` by the
  entry `p` of a column `[5000, 1]`, adds the second product and then the bias, a row `[1, 128]` broadcast down the
  sublanes.  The narrowings of float format before the products are the identity here.  At row `p` and column `c`:

      ((∑ₖ a(p,k) · wl(k,c)) · iv(p) + ∑ₖ h(p,k) · wr(k,c)) + b(c).
-/
import proofs.«163582_j48747878810305_2_alg».proof.Proof.Gen.KernelIdeal.Skeleton
import proofs.«163582_j48747878810305_2_alg».proof.Proof.LibColumn
import proofs.«163582_j48747878810305_2_alg».proof.Proof.LibPlainDot
import Idealize.ShloMosaic.Lib.ValueLayout
import Idealize.ShloMosaic.Lib.ValueIdx
import Idealize.ShloMosaic.Lib.Pipeline.Value

noncomputable section

namespace Cert.KernelIdeal.CombineBody

open Idealize.ShloMosaic Idealize.ShloMosaic.ValueIdx Cert.KernelIdeal Cert.KernelIdeal.Gen

theorem pay_apply (a : FVec Ideal S5000x128 .f32) (h : FVec Ideal S5000x128 .bf16) (wl wr : FVec Ideal S128x128 .f32)
    (iv : FVec Ideal S5000x1 .f32) (b : FVec Ideal S128 .f32) (p : Fin 5000) (c : Fin 128) :
    k1_pay1 (F := Ideal) a h wl wr iv b (ix2 p c)
      = ((∑ k : Fin 128, a (ix2 p k) * wl (ix2 k c)) * iv (ix2 p (0 : Fin 1)) + ∑ k : Fin 128, h (ix2 p k) * wr (ix2 k c))
        + b (ix1 c) := by
  unfold k1_pay1
  simp only [addf_apply, mulf_apply, Cert.GraphConv.Column.broadcastTo_a1_ab_apply, broadcastTo_1b_ab_apply,
    shapeCast_a_1a_apply, shapeCast_self, matmul]
  rw [Cert.PlainDot.matmul_zero_apply dot_S5000x128_S128x128_S5000x128_1_0_0_1_n_n rfl none
      (truncf .bf16 a bitsLt_bf16_f32) (truncf .bf16 wl bitsLt_bf16_f32) p c,
    Cert.PlainDot.matmul_zero_apply dot_S5000x128_S128x128_S5000x128_1_0_0_1_n_n rfl none
      h (truncf .bf16 wr bitsLt_bf16_f32) p c]
  simp only [truncf_apply]

end Cert.KernelIdeal.CombineBody

end
-- ==== Proof.CombineSpec.lean ====
/-
  The last stage of the kernel's program, entry by entry over the extended reals.

  From an aggregate `a : [n, 128]`, the first stage's result `h : [n, 128]`, a column `iv : [n, 1]` of row scales, two
  weights `wl wr : [128, 128]` (already transposed: contracted on their first axis) and a bias `b : [128]`, the entry at
  row `r` and column `c` is

      ((∑ₖ a(r,k) · wl(k,c)) · iv(r) + ∑ₖ h(r,k) · wr(k,c)) + b(c).
-/
import Idealize.ShloMosaic.PureOps.Ideal
import Idealize.ShloMosaic.Lib.ValueIdx

noncomputable section

namespace Cert.Combine

open Idealize.ShloMosaic Idealize.ShloMosaic.ValueIdx

/-- The last stage's result array. -/
def stage {n : ℕ} (a h : (⟨2, ![n, 128]⟩ : Shape).Idx → EReal) (iv : (⟨2, ![n, 1]⟩ : Shape).Idx → EReal)
    (wl wr : (⟨2, ![128, 128]⟩ : Shape).Idx → EReal) (b : (⟨1, ![128]⟩ : Shape).Idx → EReal) :
    (⟨2, ![n, 128]⟩ : Shape).Idx → EReal :=
  fun i =>
    ((∑ k : Fin 128, a (ix2 (⟨(i 0).val, (i 0).isLt⟩ : Fin n) k) * wl (ix2 k (⟨(i 1).val, (i 1).isLt⟩ : Fin 128)))
        * iv (ix2 (⟨(i 0).val, (i 0).isLt⟩ : Fin n) (0 : Fin 1))
      + ∑ k : Fin 128, h (ix2 (⟨(i 0).val, (i 0).isLt⟩ : Fin n) k) * wr (ix2 k (⟨(i 1).val, (i 1).isLt⟩ : Fin 128)))
    + b (ix1 (⟨(i 1).val, (i 1).isLt⟩ : Fin 128))

theorem stage_apply {n : ℕ} (a h : (⟨2, ![n, 128]⟩ : Shape).Idx → EReal) (iv : (⟨2, ![n, 1]⟩ : Shape).Idx → EReal)
    (wl wr : (⟨2, ![128, 128]⟩ : Shape).Idx → EReal) (b : (⟨1, ![128]⟩ : Shape).Idx → EReal) (r : Fin n) (c : Fin 128) :
    stage a h iv wl wr b (ix2 r c)
      = ((∑ k : Fin 128, a (ix2 r k) * wl (ix2 k c)) * iv (ix2 r (0 : Fin 1)) + ∑ k : Fin 128, h (ix2 r k) * wr (ix2 k c))
        + b (ix1 c) := rfl

end Cert.Combine

end
-- ==== Proof.Region1Value.lean ====
/-
  The second kernel's output array after its write-backs.

  The grid has 20 points; point `t` works on rows `5000·t … 5000·t + 4999` of the aggregate, of the first stage's
  result and of the column of row scales, with the two weights and the bias whole, and writes back the same rows of
  the output.  Row `p` of a block at point `t` is row `5000·t + p` of its array, so what point `t` writes back is
  block `t` of the last stage's result on the whole arrays; the 20 blocks tile the 100000 rows.
-/
import proofs.«163582_j48747878810305_2_alg».proof.Proof.Gen.KernelIdeal.Frame
import proofs.«163582_j48747878810305_2_alg».proof.Proof.KernelCombine
import proofs.«163582_j48747878810305_2_alg».proof.Proof.CombineSpec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The last stage's result on the arrays the region finds. -/
def G (c : Dev nD) : S100000x128.Idx → EReal :=
  Cert.Combine.stage (n := 100000) (V c main_v15) (V c main_v0) (V c main_v25) (V c main_v26) (V c main_v27) (V c main_arg6)

/-- The printed index maps over the grid: the row blocks move with the point, everything else stays at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the last stage's result. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2,
    View.ld_unit_zero (S := S5000x1) hz2, View.ld_unit_zero (S := S128) hz1]
  obtain ⟨e00, e01, e10, e11, e20, e21, e30, e31, e4, e50, e51, e60, e61⟩ := idx_facts t
  have ht : t.val < 20 := t.isLt
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 3 t) (iblk1 V c 5 t) (iblk1 V c 2 t) (iblk1 V c 4 t) (ix2 p q)
    = G V c (((cfg1.win 6).blk t).view.emb (ix2 p q))
  refine (Cert.KernelIdeal.CombineBody.pay_apply (iblk1 V c 0 t) (iblk1 V c 1 t) (iblk1 V c 3 t) (iblk1 V c 5 t)
    (iblk1 V c 2 t) (iblk1 V c 4 t) p q).trans ?_
  have hp : p.val < 5000 := p.isLt
  let r : Fin 100000 := ⟨t.val * 5000 + p.val, by omega⟩
  have b0 : ∀ k : Fin 128, iblk1 V c 0 t (ix2 p k) = V c main_v15 (ix2 r k) := fun k => by
    show V c main_v15 (((cfg1.win 0).blk t).view.emb (ix2 p k)) = V c main_v15 (ix2 r k)
    refine congrArg (V c main_v15) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have b1 : ∀ k : Fin 128, iblk1 V c 1 t (ix2 p k) = V c main_v0 (ix2 r k) := fun k => by
    show V c main_v0 (((cfg1.win 1).blk t).view.emb (ix2 p k)) = V c main_v0 (ix2 r k)
    refine congrArg (V c main_v0) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  have b2 : iblk1 V c 2 t (ix2 p (0 : Fin 1)) = V c main_v25 (ix2 r (0 : Fin 1)) := by
    show V c main_v25 (((cfg1.win 2).blk t).view.emb (ix2 p (0 : Fin 1))) = V c main_v25 (ix2 r (0 : Fin 1))
    refine congrArg (V c main_v25) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have b3 : ∀ k : Fin 128, iblk1 V c 3 t (ix2 k q) = V c main_v26 (ix2 k q) := fun k => by
    show V c main_v26 (((cfg1.win 3).blk t).view.emb (ix2 k q)) = V c main_v26 (ix2 k q)
    refine congrArg (V c main_v26) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have b4 : iblk1 V c 4 t (ix1 q) = V c main_arg6 (ix1 q) := by
    show V c main_arg6 (((cfg1.win 4).blk t).view.emb (ix1 q)) = V c main_arg6 (ix1 q)
    refine congrArg (V c main_arg6) (funext fun a => Fin.ext ?_)
    match a with
    | ⟨0, _⟩ => show win1_4.index t (0 : Fin 1) * 128 + 1 * q.val = q.val; omega
  have b5 : ∀ k : Fin 128, iblk1 V c 5 t (ix2 k q) = V c main_v27 (ix2 k q) := fun k => by
    show V c main_v27 (((cfg1.win 5).blk t).view.emb (ix2 k q)) = V c main_v27 (ix2 k q)
    refine congrArg (V c main_v27) (funext fun a => Fin.ext ?_)
    match a with
    | ⟨0, _⟩ => show win1_5.index t (0 : Fin 2) * 128 + 1 * k.val = k.val; omega
    | ⟨1, _⟩ => show win1_5.index t (1 : Fin 2) * 128 + 1 * q.val = q.val; omega
  have e6 : ((cfg1.win 6).blk t).view.emb (ix2 p q) = ix2 r q := by
    refine funext fun a => Fin.ext ?_
    match a with
    | ⟨0, _⟩ => show win1_6.index t (0 : Fin 2) * 5000 + 1 * p.val = t.val * 5000 + p.val; omega
    | ⟨1, _⟩ => show win1_6.index t (1 : Fin 2) * 128 + 1 * q.val = q.val; omega
  rw [e6]
  simp only [b0, b1, b2, b3, b4, b5]
  rfl

/-- An index of the array is in point `t`'s block iff each coordinate is in the block's range on its axis. -/
theorem mem_blk (t : Fin cfg1.N) (i : S100000x128.Idx) :
    i ∈ ((cfg1.win 6).blk t).view.set
      ↔ ∀ a : Fin 2, win1_6.index t a * S5000x128.size a ≤ (i a).val ∧ (i a).val < win1_6.index t a * S5000x128.size a + S5000x128.size a := by
  show i ∈ ((View.whole main_v28).slice (win1_6.rect t)).set ↔ _
  rw [View.set_slice_whole, Rect.mem_set_unit]
  exact Iff.rfl

/-- Every row block is some point's. -/
theorem idx_onto : ∀ q0 : Fin 20, ∃ t : Fin cfg1.N, win1_6.index t = ![q0.val, 0] :=
  (by decide +kernel : ∀ q0 : Fin 20, ∃ t : Fin grid1.N, win1_6.index t = ![q0.val, 0])

/-- The 20 blocks cover the array: row `i` is in the block of point `i / 5000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the region: the last stage's result on the arrays the region finds. -/
theorem final (c : Dev nD) : (dat1 V c).arrAt 6 cfg1.N = G V c :=
  (dat1 V c).arrAt_eq_of_cover 6 (G V c) (fun t _ => flushed_eq V c t) (cover)

end Cert.KernelIdeal.Region1

end
-- ==== Proof.LayerNormSpec.lean ====
/-
  The first stage of both programs, entry by entry over the extended reals.

  A row `xr` of 128 entries has the mean `μ = (∑ xr) / 128`, the variance `σ = (∑ (xr − μ)²) / 128` and the scale
  `s = rsqrt (σ + ε)`, `ε` the float nearest 1e-5.  The entry in column `q`, with gain `g`, shift `b` and mask `mk`, is

      max (((xr q − μ) · s) · g + b) 0 · mk.

  The stage's result array `[n, 128]` holds that entry for every row and column, the gain and shift taken from the
  column's position in two vectors of 128 entries, the mask from a second array `[n, 128]` at the same position.
  Every operation is the exact one on the extended reals; quotient and rsqrt have their conventions at zero and at
  the infinities, which both programs share because they apply the same operations.
-/
import Idealize.ShloMosaic.PureOps.Ideal
import Idealize.ShloMosaic.Lib.ValueIdx

noncomputable section

namespace Cert.LayerNorm

open Idealize.ShloMosaic Idealize.ShloMosaic.ValueIdx

/-- The mean of a row: its sum over 128. -/
def rowMean (xr : Fin 128 → EReal) : EReal := Ideal.div (∑ k : Fin 128, xr k) (Ideal.ofBits .f32 0x43000000#32)

/-- The variance of a row: the sum of the squared deviations from the mean, over 128. -/
def rowVar (xr : Fin 128 → EReal) : EReal :=
  Ideal.div (∑ k : Fin 128, (xr k - rowMean xr) * (xr k - rowMean xr)) (Ideal.ofBits .f32 0x43000000#32)

/-- The scale of a row: the reciprocal square root of its variance plus ε. -/
def rowScale (xr : Fin 128 → EReal) : EReal := Ideal.rsqrt (rowVar xr + Ideal.ofBits .f32 0x3727C5AC#32)

/-- One entry of the stage's result. -/
def entry (xr : Fin 128 → EReal) (q : Fin 128) (g b mk : EReal) : EReal :=
  max (((xr q - rowMean xr) * rowScale xr) * g + b) (Ideal.ofBits .f32 0x00000000#32) * mk

/-- The stage's result array from the input array, the mask array, the gain and the shift. -/
def stage {n : ℕ} (x mask : (⟨2, ![n, 128]⟩ : Shape).Idx → EReal) (γ β : (⟨1, ![128]⟩ : Shape).Idx → EReal) :
    (⟨2, ![n, 128]⟩ : Shape).Idx → EReal :=
  fun i => entry (fun k => x (ix2 (⟨(i 0).val, (i 0).isLt⟩ : Fin n) k)) ⟨(i 1).val, (i 1).isLt⟩
    (γ (ix1 (⟨(i 1).val, (i 1).isLt⟩ : Fin 128))) (β (ix1 (⟨(i 1).val, (i 1).isLt⟩ : Fin 128))) (mask i)

theorem stage_apply {n : ℕ} (x mask : (⟨2, ![n, 128]⟩ : Shape).Idx → EReal) (γ β : (⟨1, ![128]⟩ : Shape).Idx → EReal)
    (r : Fin n) (q : Fin 128) :
    stage x mask γ β (ix2 r q) = entry (fun k => x (ix2 r k)) q (γ (ix1 q)) (β (ix1 q)) (mask (ix2 r q)) := rfl

end Cert.LayerNorm

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.KernelLN.lean ====
/-
  What the first kernel's body computes from its blocks, entry by entry.

  The body loads a block of 5000 rows of the input and of the mask and the two vectors of 128 gains and shifts.  A
  row's sum is a lane reduction kept as a column `[5000, 1]` and broadcast back along the lanes; the gain and the
  shift are rows `[1, 128]` broadcast down the sublanes.  Read at row `p` and column `q` of the block, the stored value
  is the stage's entry of the block's row `p`: the change of float format before the store is the identity here.
-/
import proofs.«163582_j48747878810305_2_alg».proof.Proof.Gen.KernelIdeal.Skeleton
import proofs.«163582_j48747878810305_2_alg».proof.Proof.LayerNormSpec
import proofs.«163582_j48747878810305_2_alg».proof.Proof.LibLaneSum
import proofs.«163582_j48747878810305_2_alg».proof.Proof.LibColumn
import Idealize.ShloMosaic.Lib.ValueLayout
import Idealize.ShloMosaic.Lib.ValueIdx
import Idealize.ShloMosaic.Lib.Pipeline.Value

noncomputable section

namespace Cert.KernelIdeal.LNBody

open Idealize.ShloMosaic Idealize.ShloMosaic.ValueIdx Cert.KernelIdeal Cert.KernelIdeal.Gen

/-- The sum of row `p` of a block, over its 128 lanes. -/
theorem rowsum (v : FVec Ideal S5000x128 .f32) (h2 : FTy.f32 = FTy.f32 ∨ FTy.f32 = FTy.bf16) (h3 : (0#32 : BitVec 32) = 0#32)
    (p : Fin 5000) :
    multiReduction .add [1] S5000 v 0#32 reduces_S5000x128_S5000 h2 h3 (ix1 p) = ∑ d : Fin 128, v (ix2 p d) :=
  Cert.LaneSum.sum_last2 v _ _ h2 h3 p

theorem pay_apply (x : FVec Ideal S5000x128 .f32) (g b : FVec Ideal S128 .f32) (mk : FVec Ideal S5000x128 .f32)
    (p : Fin 5000) (q : Fin 128) :
    k0_pay1 (F := Ideal) x g b mk (ix2 p q)
      = Cert.LayerNorm.entry (fun k => x (ix2 p k)) q (g (ix1 q)) (b (ix1 q)) (mk (ix2 p q)) := by
  unfold k0_pay1
  simp only [truncf_apply, mulf_apply, maximumf_apply, addf_apply, subf_apply, divf_apply, broadcast_apply,
    Cert.GraphConv.Column.broadcastTo_a1_ab_apply, Cert.GraphConv.Column.shapeCast_a_a1_apply,
    broadcastTo_1b_ab_apply, shapeCast_a_1a_apply, rowsum, rsqrt]
  rw [rowsum x _ _ p, rowsum _ _ _ p]
  simp only [mulf_apply, subf_apply, divf_apply, broadcast_apply, Cert.GraphConv.Column.broadcastTo_a1_ab_apply,
    Cert.GraphConv.Column.shapeCast_a_a1_apply]
  rw [rowsum x _ _ p]
  rfl

end Cert.KernelIdeal.LNBody

end
-- ==== Proof.Region0Value.lean ====
/-
  The first kernel's output array after its write-backs.

  The grid has 20 points; point `t` works on rows `5000·t … 5000·t + 4999` of the input and of the mask (all 128
  columns), with the gains and the shifts whole, and writes back the same rows of the output.  Row `p` of the block
  at point `t` is row `5000·t + p` of the array, so what point `t` writes back is block `t` of the stage's result on
  the whole arrays; the 20 blocks tile the 100000 rows, so the output array ends holding the stage's result.
-/
import proofs.«163582_j48747878810305_2_alg».proof.Proof.Gen.KernelIdeal.Frame
import proofs.«163582_j48747878810305_2_alg».proof.Proof.KernelLN
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The stage's result on the arrays the region finds. -/
def H (c : Dev nD) : S100000x128.Idx → EReal :=
  Cert.LayerNorm.stage (n := 100000) (V c main_arg0) (V c main_arg2) (V c main_arg3) (V c main_arg4)

/-- The printed index maps over the grid: the row blocks move with the point, everything else stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0 :=
  (by decide +kernel : ∀ t : Fin grid0.N, _)

/-- What point `t` writes back is block `t` of the stage's result. -/
theorem flushed_eq (c : Dev nD) (t : Fin cfg0.N) :
    (dat0 V c).flushed 4 t = ((cfg0.win 4).blk t).view.read (Elt Ideal) (H V c) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128) hz1]
  obtain ⟨e00, e01, e10, e11, e2, e3, e40, e41⟩ := idx_facts t
  have ht : t.val < 20 := t.isLt
  funext j
  obtain ⟨p, q, rfl⟩ : ∃ (p : Fin 5000) (q : Fin 128), j = ix2 p q := ⟨j 0, j 1, eq_ix2 j⟩
  show k0_pay1 (F := Ideal) (iblk0 V c 0 t) (iblk0 V c 2 t) (iblk0 V c 3 t) (iblk0 V c 1 t) (ix2 p q)
    = H V c (((cfg0.win 4).blk t).view.emb (ix2 p q))
  refine (Cert.KernelIdeal.LNBody.pay_apply (iblk0 V c 0 t) (iblk0 V c 2 t) (iblk0 V c 3 t) (iblk0 V c 1 t) p q).trans ?_
  have hp : p.val < 5000 := p.isLt
  let r : Fin 100000 := ⟨t.val * 5000 + p.val, by omega⟩
  have b0 : ∀ k : Fin 128, iblk0 V c 0 t (ix2 p k) = V c main_arg0 (ix2 r k) := fun k => by
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have b1 : iblk0 V c 1 t (ix2 p q) = V c main_arg2 (ix2 r q) := by
    show V c main_arg2 (((cfg0.win 1).blk t).view.emb (ix2 p q)) = V c main_arg2 (ix2 r q)
    refine congrArg (V c main_arg2) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * q.val = q.val; omega
  have b2 : iblk0 V c 2 t (ix1 q) = V c main_arg3 (ix1 q) := by
    show V c main_arg3 (((cfg0.win 2).blk t).view.emb (ix1 q)) = V c main_arg3 (ix1 q)
    refine congrArg (V c main_arg3) (funext fun a => Fin.ext ?_)
    match a with
    | ⟨0, _⟩ => show win0_2.index t (0 : Fin 1) * 128 + 1 * q.val = q.val; omega
  have b3 : iblk0 V c 3 t (ix1 q) = V c main_arg4 (ix1 q) := by
    show V c main_arg4 (((cfg0.win 3).blk t).view.emb (ix1 q)) = V c main_arg4 (ix1 q)
    refine congrArg (V c main_arg4) (funext fun a => Fin.ext ?_)
    match a with
    | ⟨0, _⟩ => show win0_3.index t (0 : Fin 1) * 128 + 1 * q.val = q.val; omega
  have e4 : ((cfg0.win 4).blk t).view.emb (ix2 p q) = ix2 r q := by
    refine funext fun a => Fin.ext ?_
    match a with
    | ⟨0, _⟩ => show win0_4.index t (0 : Fin 2) * 5000 + 1 * p.val = t.val * 5000 + p.val; omega
    | ⟨1, _⟩ => show win0_4.index t (1 : Fin 2) * 128 + 1 * q.val = q.val; omega
  rw [e4, show (fun k => iblk0 V c 0 t (ix2 p k)) = fun k => V c main_arg0 (ix2 r k) from funext b0, b1, b2, b3]
  rfl

/-- An index of the array is in point `t`'s block iff each coordinate is in the block's range on its axis. -/
theorem mem_blk (t : Fin cfg0.N) (i : S100000x128.Idx) :
    i ∈ ((cfg0.win 4).blk t).view.set
      ↔ ∀ a : Fin 2, win0_4.index t a * S5000x128.size a ≤ (i a).val ∧ (i a).val < win0_4.index t a * S5000x128.size a + S5000x128.size a := by
  show i ∈ ((View.whole main_v0).slice (win0_4.rect t)).set ↔ _
  rw [View.set_slice_whole, Rect.mem_set_unit]
  exact Iff.rfl

/-- Every row block is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-- The 20 blocks cover the array: row `i` is in the block of point `i / 5000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the region: the stage's result on the arrays the region finds. -/
theorem final (c : Dev nD) : (dat0 V c).arrAt 4 cfg0.N = H V c :=
  (dat0 V c).arrAt_eq_of_cover 4 (H V c) (fun t _ => flushed_eq V c t) (cover)

end Cert.KernelIdeal.Region0

end
-- ==== Proof.RefLN.lean ====
/-
  The reference's first stage, entry by entry.

  The reference computes the stage on the whole arrays with host operations: a row's sum is a reduction kept as a
  column `[100000, 1]` and broadcast back, the gain and the shift are vectors broadcast through `[1, 128]`.  Each
  operation is read at an index given by coordinates, innermost first; at row `r` and column `q` the stage's result
  is the stage's entry of row `r` of the input.
-/
import proofs.«163582_j48747878810305_2_alg».proof.Proof.Gen.ReferenceIdeal.Read
import proofs.«163582_j48747878810305_2_alg».proof.Proof.LayerNormSpec
import Idealize.ShloMosaic.Lib.ValueIdx
import Idealize.ShloMosaic.PureOps.Ideal.Laws

noncomputable section

namespace Cert.ReferenceIdeal.LNRef

open Idealize.ShloMosaic Idealize.ShloMosaic.ValueIdx Cert.ReferenceIdeal Cert.ReferenceIdeal.Read Cert.LayerNorm

/-- Two indices of a rank-2 (rank-1) shape with the same coordinates are equal. -/
macro "idx2" : tactic => `(tactic| exact funext fun a => Fin.ext (by match a with | ⟨0, _⟩ => rfl | ⟨1, _⟩ => rfl))
macro "idx1" : tactic => `(tactic| exact funext fun a => Fin.ext (by match a with | ⟨0, _⟩ => rfl))

variable (x0 x2 : (⟨S100000x128, .f32⟩ : BufTy).Contents (Elt Ideal)) (x3 x4 : (⟨S128, .f32⟩ : BufTy).Contents (Elt Ideal))

/-- Row `r` of the input. -/
abbrev row (r : Fin 100000) : Fin 128 → EReal := fun k => x0 (ix2 r k)

theorem v0_at (r : Fin 100000) : val_main_v0 (F := Ideal) x0 (ix1 r) = ∑ k : Fin 128, x0 (ix2 r k) := by
  rw [val_main_v0_apply]
  show Ideal.ofBits .f32 0x00000000#32 + _ = _
  rw [Ideal.ofBits_zero_f32, zero_add]
  exact Finset.sum_congr rfl fun k _ => congrArg x0 (by idx2)

theorem v3_at (r : Fin 100000) (u : Fin 1) : val_main_v3 (F := Ideal) x0 (ix2 r u) = rowMean (row x0 r) := by
  rw [val_main_v3_apply, val_main_v1_apply, val_main_v2_apply, val_main_cst_0_apply,
    show idx_main_v1 (ix2 r u) = ix1 r from by idx1, v0_at]
  rfl

theorem v5_at (r : Fin 100000) (q : Fin 128) :
    val_main_v5 (F := Ideal) x0 (ix2 r q) = x0 (ix2 r q) - rowMean (row x0 r) := by
  rw [val_main_v5_apply, val_main_v4_apply, show idx_main_v4 (ix2 r q) = ix2 r (0 : Fin 1) from by idx2, v3_at]
  rfl

theorem v7_at (r : Fin 100000) :
    val_main_v7 (F := Ideal) x0 (ix1 r)
      = ∑ k : Fin 128, (x0 (ix2 r k) - rowMean (row x0 r)) * (x0 (ix2 r k) - rowMean (row x0 r)) := by
  rw [val_main_v7_apply]
  show Ideal.ofBits .f32 0x00000000#32 + _ = _
  rw [Ideal.ofBits_zero_f32, zero_add]
  refine Finset.sum_congr rfl fun k _ => ?_
  rw [show idx_main_v7 (ix1 r) k = ix2 r k from by idx2, val_main_v6_apply, v5_at]
  rfl

theorem v10_at (r : Fin 100000) (u : Fin 1) : val_main_v10 (F := Ideal) x0 (ix2 r u) = rowVar (row x0 r) := by
  rw [val_main_v10_apply, val_main_v8_apply, val_main_v9_apply, val_main_cst_2_apply,
    show idx_main_v8 (ix2 r u) = ix1 r from by idx1, v7_at]
  rfl

theorem v15_at (r : Fin 100000) (u : Fin 1) : val_main_v15 (F := Ideal) x0 (ix2 r u) = rowScale (row x0 r) := by
  rw [val_main_v15_apply, val_main_v14_apply, v10_at, val_main_v13_apply, val_main_cst_3_apply]
  rfl

theorem v17_at (r : Fin 100000) (q : Fin 128) :
    val_main_v17 (F := Ideal) x0 (ix2 r q) = (x0 (ix2 r q) - rowMean (row x0 r)) * rowScale (row x0 r) := by
  rw [val_main_v17_apply, val_main_v12_apply, val_main_v11_apply, val_main_v16_apply,
    show idx_main_v11 (ix2 r q) = ix2 r (0 : Fin 1) from by idx2,
    show idx_main_v16 (ix2 r q) = ix2 r (0 : Fin 1) from by idx2, v3_at, v15_at]
  rfl

theorem v25_at (r : Fin 100000) (q : Fin 128) :
    val_main_v25 (F := Ideal) x0 x2 x3 x4 (ix2 r q)
      = entry (row x0 r) q (x3 (ix1 q)) (x4 (ix1 q)) (x2 (ix2 r q)) := by
  rw [val_main_v25_apply, val_main_v24_apply, val_main_v23_apply, val_main_v20_apply, v17_at,
    val_main_v19_apply, val_main_v18_apply, val_main_v22_apply, val_main_v21_apply,
    val_main_call0_v0_apply, val_main_call0_cst_apply,
    show idx_main_v18 (idx_main_v19 (ix2 r q)) = ix1 q from by idx1,
    show idx_main_v21 (idx_main_v22 (ix2 r q)) = ix1 q from by idx1]
  rfl

/-- The reference's first stage is the stage. -/
theorem stage_eq : val_main_v25 (F := Ideal) x0 x2 x3 x4 = stage (n := 100000) x0 x2 x3 x4 := by
  funext i
  obtain ⟨r, q, rfl⟩ : ∃ (r : Fin 100000) (q : Fin 128), i = ix2 r q := ⟨i 0, i 1, eq_ix2 i⟩
  rw [v25_at, stage_apply]

end Cert.ReferenceIdeal.LNRef

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibCountScatter.lean ====
/-
  Counting through an accumulating scatter.

  A scatter whose body adds, over a commutative monoid, does not depend on the order of its updates: read at an
  element it is the operand there plus the sum of the updates that land on it.  Scattering a one for every entry
  of an index column into a vector of zeros therefore COUNTS, per row, the entries that name the row.  Done in
  32-bit integers (the count is far below 2^31, so it does not wrap) and then converted to a float, or done directly
  in floats over the extended reals, the result is the same real number: the number of entries landing on the row.
-/
import Mathlib.Data.BitVec
import Idealize.ShloMosaic.Lib.ValueIdx
import Idealize.ShloMosaic.PureOps.Ideal
import Idealize.ShloMosaic.PureOps.Ideal.Laws
import proofs.«163582_j48747878810305_2_alg».proof.Proof.LibEdgeIndex

noncomputable section

namespace Cert.CountScatter

open Idealize.ShloMosaic Idealize.ShloMosaic.ValueIdx Cert.EdgeIndex

section fold

variable {ι κ α : Type} [DecidableEq κ] [AddCommMonoid α]

/-- A left fold of steps each of which adds a value at (at most) one point, read at a point: the start value there plus
    the added values of the steps that hit the point. -/
theorem foldl_add_apply (step : (κ → α) → ι → κ → α) (ρ : ι → Option κ) (v : ι → α)
    (hstep : ∀ r n i, step r n i = r i + if ρ n = some i then v n else 0) (i : κ) :
    ∀ (l : List ι) (x : κ → α), l.foldl step x i = x i + (l.map fun n => if ρ n = some i then v n else 0).sum
  | [], x => by simp
  | n :: l, x => by
    rw [List.foldl_cons, foldl_add_apply step ρ v hstep i l, hstep, List.map_cons, List.sum_cons, add_assoc]

end fold

/-- A scatter whose body adds over a commutative monoid, at an element: the operand there plus the updates whose
    result index is that element. -/
theorem scatter_add_apply {s si u : Shape} {w : Nat} {α : Type} [AddCommMonoid α] (d : ScatterDims s si u)
    (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply _ (fun n => d.resultIdx? (u.rowMajor.symm n) idx) (fun n => upd (u.rowMajor.symm n)) ?_ i
    (List.finRange u.numel) x).trans ?_
  · intro r n i'
    dsimp only
    by_cases hj : d.resultIdx? (u.rowMajor.symm n) idx = some i'
    · rw [if_pos hj, hj]; simp
    · rw [if_neg hj, add_zero]
      revert hj
      cases d.resultIdx? (u.rowMajor.symm n) idx with
      | none => intro _; rfl
      | some j =>
        intro hj
        have hne : i' ≠ j := fun e => hj (e ▸ rfl)
        show (if i' = j then _ else r i') = r i'
        rw [if_neg hne]
  congr 1
  rw [← Fin.sum_univ_def]
  exact Equiv.sum_comp u.rowMajor.symm (fun j => if d.resultIdx? j idx = some i then upd j else 0)

variable {N E : ℕ}

/-- The number of entries of the index column that name row `n`. -/
def landing (idx : IVec ⟨2, ![E, 1]⟩ 32) (n : Fin N) : ℕ := (Finset.univ.filter fun e : Fin E => lands idx e n).card

theorem landing_le (idx : IVec ⟨2, ![E, 1]⟩ 32) (n : Fin N) : landing idx n ≤ E := by
  unfold landing
  exact (Finset.card_filter_le _ _).trans (by simp)

/-- Ones scattered with integer addition into zeros count the landing entries, as a 32-bit word. -/
theorem int_count (wf : ScatterDims.WF ⟨1, ![N]⟩ ⟨2, ![E, 1]⟩ ⟨1, ![E]⟩ [] [0] [0] 1)
    (idx : IVec ⟨2, ![E, 1]⟩ 32) (x : IVec ⟨1, ![N]⟩ 32) (upd : IVec ⟨1, ![E]⟩ 32)
    (hx : ∀ i, x i = 0#32) (hu : ∀ j, upd j = 1#32) (n : Fin N) :
    Host.scatter (vecScatter N E wf) IntOp.addi x idx upd (ix1 n) = BitVec.ofNat 32 (landing idx n) := by
  refine (scatter_add_apply (α := BitVec 32) (vecScatter N E wf) x idx upd (ix1 n)).trans ?_
  rw [hx, sum_idx1]
  rw [Finset.sum_congr rfl fun e _ => if_congr (vecScatter_lands wf idx e n) (hu (ix1 e)) rfl]
  show (0 : BitVec 32) + ∑ e : Fin E, (if lands idx e n then (1 : BitVec 32) else 0) = _
  rw [zero_add, Finset.sum_boole]
  unfold landing
  exact BitVec.natCast_eq_ofNat _ _

/-- A count below 2^31 read back signed from its 32-bit word is itself. -/
theorem toInt_ofNat_of_lt (k : ℕ) (hk : k < 2 ^ 31) : (BitVec.ofNat 32 k).toInt = (k : Int) := by
  rw [BitVec.toInt_eq_toNat_cond, BitVec.toNat_ofNat]
  have h1 : k % 2 ^ 32 = k := Nat.mod_eq_of_lt (by omega)
  rw [h1, if_pos (by omega)]

/-- The integer count converted to a float, over the extended reals: the number of landing entries. -/
theorem int_count_real (wf : ScatterDims.WF ⟨1, ![N]⟩ ⟨2, ![E, 1]⟩ ⟨1, ![E]⟩ [] [0] [0] 1) (hE : E < 2 ^ 31)
    (idx : IVec ⟨2, ![E, 1]⟩ 32) (x : IVec ⟨1, ![N]⟩ 32) (upd : IVec ⟨1, ![E]⟩ 32)
    (hx : ∀ i, x i = 0#32) (hu : ∀ j, upd j = 1#32) (n : Fin N) :
    (((Host.scatter (vecScatter N E wf) IntOp.addi x idx upd (ix1 n)).toInt : ℝ) : EReal)
      = ((landing idx n : ℝ) : EReal) := by
  rw [int_count wf idx x upd hx hu n, toInt_ofNat_of_lt _ (lt_of_le_of_lt (landing_le idx n) hE)]
  norm_cast

/-- Ones scattered with float addition into zeros, over the extended reals: the number of landing entries. -/
theorem float_count_real (wf : ScatterDims.WF ⟨1, ![N]⟩ ⟨2, ![E, 1]⟩ ⟨1, ![E]⟩ [] [0] [0] 1)
    (idx : IVec ⟨2, ![E, 1]⟩ 32) (x : FVec Ideal ⟨1, ![N]⟩ .f32) (upd : FVec Ideal ⟨1, ![E]⟩ .f32)
    (hx : ∀ i, x i = 0) (hu : ∀ j, upd j = 1) (n : Fin N) :
    Host.scatterAdd (F := Ideal) (vecScatter N E wf) x idx upd (ix1 n) = ((landing idx n : ℝ) : EReal) := by
  rw [vecScatterAdd_apply, hx, zero_add]
  have h : ∀ e : Fin E, (if lands idx e n then upd (ix1 e) else 0) = (((if lands idx e n then 1 else 0 : ℝ)) : EReal) := fun e => by
    rw [hu]; split <;> rfl
  rw [Finset.sum_congr rfl fun e _ => h e]
  have hs : ∀ (s : Finset (Fin E)) (f : Fin E → ℝ), ∑ e ∈ s, ((f e : ℝ) : EReal) = ((∑ e ∈ s, f e : ℝ) : EReal) := fun s f => by
    classical
    induction s using Finset.induction_on with
    | empty => simp
    | insert a s ha ih => rw [Finset.sum_insert ha, Finset.sum_insert ha, EReal.coe_add, ih]
  rw [hs, Finset.sum_boole]
  rfl

end Cert.CountScatter

end
-- ==== Proof.HostStretch.lean ====
/-
  The arrays the second kernel is launched on.

  Between the two kernels the program gathers rows of the first stage's result along the edges' sources and adds
  them into the rows named by the edges' destinations, counts per row the edges that name it as a destination,
  takes the reciprocal of that count's maximum with one, and transposes the two weights.  The gather, the
  accumulating scatter, the index columns and the transposes are the very operations the reference applies, so those
  arrays are the reference's stages of the same arguments: the first stage's result (both programs' first stages are
  the same function), the aggregate, the transposed weights.  The count is taken in 32-bit integers and converted;
  row `r`'s entry of the column of row scales is `1 / max (n_r) 1` with `n_r` the number of edges whose destination is `r`.
-/
import proofs.«163582_j48747878810305_2_alg».proof.Proof.Gen.KernelIdeal.Frame
import proofs.«163582_j48747878810305_2_alg».proof.Proof.Gen.ReferenceIdeal.Read
import proofs.«163582_j48747878810305_2_alg».proof.Proof.Region0Value
import proofs.«163582_j48747878810305_2_alg».proof.Proof.RefLN
import proofs.«163582_j48747878810305_2_alg».proof.Proof.LibCountScatter
import Idealize.ShloMosaic.Lib.StableHlo.Run
import Idealize.ShloMosaic.Lib.Pipeline.Value
import Idealize.ShloMosaic.PureOps.Ideal
import Idealize.ShloMosaic.PureOps.IdealRules

set_option maxRecDepth 16384

noncomputable section

namespace Cert.KernelIdeal.Stretch

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read (val_main_v25 val_main_v39 val_main_v42 val_main_v49 val_main_v54)

variable (m : (ℓ : Loc nD τ sig) → Buf (Elt Ideal) ℓ) (ρ : Dev nD → PrngReg)

/-- The first kernel's output array after the region: the reference's first stage of the arguments. -/
theorem h_entry (c : Dev nD) :
    W1 m ρ c (Proc.devRef .tc main_v0)
      = val_main_v25 (F := Ideal) (m ((c : Thread nD τ).loc main_arg0)) (m ((c : Thread nD τ).loc main_arg2))
          (m ((c : Thread nD τ).loc main_arg3)) (m ((c : Thread nD τ).loc main_arg4)) := by
  refine ((W1_arr m ρ c 4).trans (Cert.KernelIdeal.Region0.final (V0 m ρ) c)).trans ?_
  rw [Cert.ReferenceIdeal.LNRef.stage_eq]
  rfl

theorem arg1_entry (c : Dev nD) : W1 m ρ c (Proc.devRef .tc main_arg1) = m ((c : Thread nD τ).loc main_arg1) :=
  W1_of_ne m ρ c main_arg1 (by decide)
theorem arg5_entry (c : Dev nD) : W1 m ρ c (Proc.devRef .tc main_arg5) = m ((c : Thread nD τ).loc main_arg5) :=
  W1_of_ne m ρ c main_arg5 (by decide)
theorem arg6_entry (c : Dev nD) : W1 m ρ c (Proc.devRef .tc main_arg6) = m ((c : Thread nD τ).loc main_arg6) :=
  W1_of_ne m ρ c main_arg6 (by decide)
theorem arg7_entry (c : Dev nD) : W1 m ρ c (Proc.devRef .tc main_arg7) = m ((c : Thread nD τ).loc main_arg7) :=
  W1_of_ne m ρ c main_arg7 (by decide)

/-- The first stage's result is still there when the second kernel is launched. -/
theorem h_at (c : Dev nD) :
    V2 m ρ c main_v0
      = val_main_v25 (F := Ideal) (m ((c : Thread nD τ).loc main_arg0)) (m ((c : Thread nD τ).loc main_arg2))
          (m ((c : Thread nD τ).loc main_arg3)) (m ((c : Thread nD τ).loc main_arg4)) := by
  show StableHlo.after hostOps1 (W1 m ρ c) (Proc.devRef .tc main_v0) = _
  after_results_simp
  exact h_entry m ρ c

/-- The aggregate is the reference's aggregate of the arguments. -/
theorem agg_at (c : Dev nD) :
    V2 m ρ c main_v15
      = val_main_v39 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after hostOps1 (W1 m ρ c) (Proc.devRef .tc main_v15) = _
  after_results_simp
  rw [h_entry m ρ c, arg1_entry m ρ c]
  rfl

/-- The transposed weights are the reference's. -/
theorem wl_at (c : Dev nD) :
    V2 m ρ c main_v26 = val_main_v49 (F := Ideal) (m ((c : Thread nD τ).loc main_arg5)) := by
  show StableHlo.after hostOps1 (W1 m ρ c) (Proc.devRef .tc main_v26) = _
  after_results_simp
  rw [arg5_entry m ρ c]
  rfl
theorem wr_at (c : Dev nD) :
    V2 m ρ c main_v27 = val_main_v54 (F := Ideal) (m ((c : Thread nD τ).loc main_arg7)) := by
  show StableHlo.after hostOps1 (W1 m ρ c) (Proc.devRef .tc main_v27) = _
  after_results_simp
  rw [arg7_entry m ρ c]
  rfl

/-- The bias is the argument. -/
theorem bias_at (c : Dev nD) : V2 m ρ c main_arg6 = m ((c : Thread nD τ).loc main_arg6) := by
  show StableHlo.after hostOps1 (W1 m ρ c) (Proc.devRef .tc main_arg6) = _
  after_results_simp
  exact arg6_entry m ρ c

/-- The float one. -/
theorem one_eq : Ideal.ofBits .f32 0x3F800000#32 = 1 := IdealRules.sign_bit.ideal_onePat .f32

/-- The column of row scales at row `r`: the reciprocal of the maximum with one of the number of edges whose
    destination is `r`. -/
theorem scale_at (c : Dev nD) (r : Fin 100000) :
    V2 m ρ c main_v25 (ix2 r (0 : Fin 1))
      = Ideal.div 1 (max ((Cert.CountScatter.landing (N := 100000)
          (val_main_v42 (F := Ideal) (m ((c : Thread nD τ).loc main_arg1))) r : ℝ) : EReal) 1) := by
  show StableHlo.after hostOps1 (W1 m ρ c) (Proc.devRef .tc main_v25) (ix2 r (0 : Fin 1)) = _
  after_results_simp
  rw [arg1_entry m ρ c]
  refine (broadcastInDim_apply _ bcast_S100000_S100000x1_0 _ (ix2 r (0 : Fin 1)) (ix1 r) (fun a => match a with
    | ⟨0, _⟩ => by show r.val = if (100000 : Nat) = 1 then 0 else r.val; rw [if_neg (by decide)])).trans ?_
  have hcnt := Cert.CountScatter.int_count_real (N := 100000) (E := 600000) scatter_S100000_S600000x1_S600000_n_0_0_1_wf
    (by norm_num) (val_main_v42 (F := Ideal) (m ((c : Thread nD τ).loc main_arg1)))
    (broadcastInDim S100000 ![] bcast_S_S100000 (constantI S_ 32 0#32))
    (broadcastInDim S600000 ![] bcast_S_S600000 (constantI S_ 32 1#32)) (fun _ => rfl) (fun _ => rfl) r
  change Ideal.div (Ideal.ofBits .f32 0x3F800000#32)
    (max ((((Host.scatter (Cert.EdgeIndex.vecScatter 100000 600000 scatter_S100000_S600000x1_S600000_n_0_0_1_wf) IntOp.addi
      (broadcastInDim S100000 ![] bcast_S_S100000 (constantI S_ 32 0#32))
      (val_main_v42 (F := Ideal) (m ((c : Thread nD τ).loc main_arg1)))
      (broadcastInDim S600000 ![] bcast_S_S600000 (constantI S_ 32 1#32)) (ix1 r)).toInt : ℝ) : EReal))
      (Ideal.ofBits .f32 0x3F800000#32)) = _
  rw [hcnt, one_eq]

end Cert.KernelIdeal.Stretch

end
-- ==== Proof.MeanLaw.lean ====
/-
  The one algebraic law that joins the two programs.

  One side scales a whole inner product by the reciprocal of a count, the other divides every entry of the first
  factor by the count before the inner product is taken.  On the extended reals a product does not distribute over
  a sum in general, but it does when the factor is a nonnegative real number: such a factor sends each infinity to
  itself and scales the reals, so it commutes with the extended sum whatever the summands are.  The count's maximum
  with one is a real number at least one, its reciprocal a nonnegative real number, and the quotient by it the product
  with that reciprocal; nothing is asked of the summands.
-/
import Idealize.ShloMosaic.PureOps.Ideal
import Idealize.ShloMosaic.PureOps.Ideal.Laws

noncomputable section

namespace Cert.MeanLaw

open Idealize.ShloMosaic

/-- A nonnegative real factor moves inside a finite sum of extended reals. -/
theorem coe_mul_sum {ι : Type} (s : Finset ι) (a : ℝ) (ha : 0 ≤ a) (f : ι → EReal) :
    (a : EReal) * ∑ k ∈ s, f k = ∑ k ∈ s, (a : EReal) * f k := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- Scaling an inner product by a nonnegative real is scaling the first factor of every product. -/
theorem scale_inner {n : Nat} (u w : Fin n → EReal) (a : ℝ) (ha : 0 ≤ a) :
    (∑ k : Fin n, u k * w k) * (a : EReal) = ∑ k : Fin n, (u k * (a : EReal)) * w k := by
  rw [mul_comm, coe_mul_sum _ a ha]
  exact Finset.sum_congr rfl fun k _ => by rw [mul_comm (u k) (a : EReal), mul_assoc]

/-- The maximum of a real number and one, as an extended real, is a real number at least one. -/
theorem max_one_eq (s : ℝ) : max (s : EReal) 1 = ((max s 1 : ℝ) : EReal) := by
  have h := (EReal.coe_strictMono.monotone).map_max (a := s) (b := (1 : ℝ))
  rw [h]; rfl

/-- THE LAW.  With `c = max s 1` for a real `s`: the inner product of `u` with `w` scaled by `1 / c`, plus a second
    term `y`, plus `b`, is the inner product of the entrywise quotients `u k / c` with `w`, plus `b`, plus `y`. -/
theorem mean_combine {n : Nat} (u w : Fin n → EReal) (s : ℝ) (y b : EReal) :
    ((∑ k : Fin n, u k * w k) * Ideal.div 1 (max (s : EReal) 1) + y) + b
      = ((∑ k : Fin n, Ideal.div (u k) (max (s : EReal) 1) * w k) + b) + y := by
  have hc : (max s 1 : ℝ) ≠ 0 := ne_of_gt (lt_of_lt_of_le one_pos (le_max_right s 1))
  have ha : (0 : ℝ) ≤ 1 / max s 1 := by positivity
  have hq : ∀ k : Fin n, Ideal.div (u k) ((max s 1 : ℝ) : EReal) * w k = (u k * ((1 / max s 1 : ℝ) : EReal)) * w k :=
    fun k => by rw [Ideal.div_coe hc (u k)]
  rw [max_one_eq, Ideal.div_coe hc, one_mul, scale_inner u w _ ha, Finset.sum_congr rfl fun k _ => hq k]
  exact add_right_comm _ _ _

end Cert.MeanLaw

end
-- ==== Proof.Bridge.lean ====
/-
  The two programs compute the same array.

  With `h` the first stage's result, `a` the aggregate, `n_r` the number of edges whose destination is row `r` and
  `c_r = max n_r 1`, the kernel's result at row `r` and column `q` is

      ((∑ₖ a(r,k) · Wl(q,k)) · (1 / c_r) + ∑ₖ h(r,k) · Wr(q,k)) + b(q)

  and the reference's is

      ((∑ₖ (a(r,k) / c_r) · Wl(q,k)) + b(q)) + ∑ₖ h(r,k) · Wr(q,k).

  Both programs hold the same `h`, the same `a` and the same transposed weights; the kernel's count is an integer
  count converted to a float, the reference's a float sum of ones, and both are the real number `n_r`.  The divisor
  `c_r` is a real number at least one, so dividing by it is multiplying by a nonnegative real, which moves across the
  extended sum; the last two additions only change places.
-/
import proofs.«163582_j48747878810305_2_alg».proof.Proof.KernelRun
import proofs.«163582_j48747878810305_2_alg».proof.Proof.Region1Value
import proofs.«163582_j48747878810305_2_alg».proof.Proof.HostStretch
import proofs.«163582_j48747878810305_2_alg».proof.Proof.MeanLaw
import proofs.«163582_j48747878810305_2_alg».proof.Proof.LibCountScatter
import proofs.«163582_j48747878810305_2_alg».proof.Proof.Gen.ReferenceIdeal.Read

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.ReferenceIdeal.Read

macro "idx2" : tactic => `(tactic| exact funext fun a => Fin.ext (by match a with | ⟨0, _⟩ => rfl | ⟨1, _⟩ => rfl))
macro "idx1" : tactic => `(tactic| exact funext fun a => Fin.ext (by match a with | ⟨0, _⟩ => rfl))

/-- The reference's divisor at row `r`: the maximum with one of the number of edges whose destination is `r`. -/
theorem ref_count (x1 : (⟨Cert.ReferenceIdeal.S2x600000, .i32⟩ : BufTy).Contents (Elt Ideal)) (r : Fin 100000) :
    val_main_v45 (F := Ideal) x1 (ix1 r)
      = max ((Cert.CountScatter.landing (N := 100000) (val_main_v42 (F := Ideal) x1) r : ℝ) : EReal) 1 := by
  rw [val_main_v45_apply, val_main_v44_apply, val_main_cst_8_apply]
  have h := Cert.CountScatter.float_count_real (N := 100000) (E := 600000)
    Cert.ReferenceIdeal.Facts₀.scatter_S100000_S600000x1_S600000_n_0_0_1_wf (val_main_v42 (F := Ideal) x1)
    (val_main_v41 (F := Ideal)) (val_main_v40 (F := Ideal))
    (fun i => by rw [val_main_v41_apply, val_main_cst_7_apply]; exact Ideal.ofBits_zero_f32)
    (fun j => by rw [val_main_v40_apply, val_main_cst_6_apply]; exact Cert.KernelIdeal.Stretch.one_eq) r
  change max (Host.scatterAdd (F := Ideal) (Cert.EdgeIndex.vecScatter 100000 600000
      Cert.ReferenceIdeal.Facts₀.scatter_S100000_S600000x1_S600000_n_0_0_1_wf) (val_main_v41 (F := Ideal))
      (val_main_v42 (F := Ideal) x1) (val_main_v40 (F := Ideal)) (ix1 r)) (Ideal.ofBits .f32 0x3F800000#32) = _
  rw [h, Cert.KernelIdeal.Stretch.one_eq]

variable (m : (ℓ : Loc nD τ sig) → Buf (Elt Ideal) ℓ) (ρ : Dev nD → PrngReg)

/-- The kernel's result array after the run: the last stage's result on the arrays the second kernel is launched on. -/
theorem kernel_value (c : Dev nD) :
    W3 m ρ c (Proc.devRef .tc main_v28) = Cert.KernelIdeal.Region1.G (V2 m ρ) c :=
  (Cert.KernelIdeal.RunValue.result_eq m ρ c).trans (Cert.KernelIdeal.Region1.final (V2 m ρ) c)

/-- The kernel's result is the reference's result of the same arguments. -/
theorem value_eq (c : Dev nD) :
    Cert.KernelIdeal.Region1.G (V2 m ρ) c
      = val_main_v56 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  funext i
  obtain ⟨r, q, rfl⟩ : ∃ (r : Fin 100000) (q : Fin 128), i = ix2 r q := ⟨i 0, i 1, eq_ix2 i⟩
  show Cert.Combine.stage (n := 100000) (V2 m ρ c main_v15) (V2 m ρ c main_v0) (V2 m ρ c main_v25) (V2 m ρ c main_v26)
    (V2 m ρ c main_v27) (V2 m ρ c main_arg6) (ix2 r q) = _
  rw [Cert.Combine.stage_apply, Cert.KernelIdeal.Stretch.scale_at, Cert.KernelIdeal.Stretch.agg_at,
    Cert.KernelIdeal.Stretch.h_at, Cert.KernelIdeal.Stretch.wl_at, Cert.KernelIdeal.Stretch.wr_at,
    Cert.KernelIdeal.Stretch.bias_at]
  rw [val_main_v56_apply, val_main_v53_apply, val_main_v50_apply, val_main_v55_apply, val_main_v52_apply, val_main_v51_apply]
  have i1 : ∀ k : Fin 128, lidx_main_v50 (ix2 r q) k = ix2 r k := fun k => by idx2
  have i2 : ∀ k : Fin 128, ridx_main_v50 (ix2 r q) k = ix2 k q := fun k => by idx2
  have i3 : ∀ k : Fin 128, lidx_main_v55 (ix2 r q) k = ix2 r k := fun k => by idx2
  have i4 : ∀ k : Fin 128, ridx_main_v55 (ix2 r q) k = ix2 k q := fun k => by idx2
  have i5 : idx_main_v51 (idx_main_v52 (ix2 r q)) = ix1 q := by idx1
  simp only [i1, i2, i3, i4, i5]
  have h48 : ∀ k : Fin 128,
      val_main_v48 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 r k)
        = Ideal.div (val_main_v39 (F := Ideal) (m ((c : Thread nD τ).loc main_arg0)) (m ((c : Thread nD τ).loc main_arg1))
              (m ((c : Thread nD τ).loc main_arg2)) (m ((c : Thread nD τ).loc main_arg3)) (m ((c : Thread nD τ).loc main_arg4)) (ix2 r k))
            (max ((Cert.CountScatter.landing (N := 100000) (val_main_v42 (F := Ideal) (m ((c : Thread nD τ).loc main_arg1))) r : ℝ) : EReal) 1) := fun k => by
    rw [val_main_v48_apply, val_main_v47_apply, val_main_v46_apply,
      show idx_main_v46 (idx_main_v47 (ix2 r k)) = ix1 r from by idx1, ref_count]
    rfl
  simp only [h48]
  exact Cert.MeanLaw.mean_combine _ _ _ _ _

end Cert.Bridge

end
-- ==== Proof.lean ====
/-
  A graph layer: LayerNorm, ReLU and a dropout mask on the node features, then a mean aggregation over incoming
  edges combined with two linear maps.

  The kernel's program runs two kernels with host operations between them; the reference is host operations only.
  Over the extended reals both compute, for node `r` and output feature `q`,

      h(r, ·)  = max (((x(r, ·) − μ_r) · rsqrt (σ_r + ε)) · γ + β) 0 · mask(r, ·)        (μ_r, σ_r the row's mean and variance),
      a(r, k)  = Σ over the edges e with destination r of h(source e, k),
      n_r      = the number of edges with destination r,          c_r = max n_r 1,
      out(r,q) = Σₖ (a(r,k) / c_r) · Wl(q,k) + b(q) + Σₖ h(r,k) · Wr(q,k).

  The kernel's program differs in three places: it counts `n_r` in 32-bit integers and converts the count (the same
  real number, far below 2^31); it multiplies the whole first product by `1 / c_r` instead of dividing every entry of
  `a` (equal because `c_r` is a real number at least one, and a nonnegative real factor moves across a sum of
  extended reals whatever its summands are); and it adds the bias last (addition is commutative and associative).
  Narrowing a float's format is the identity over the extended reals.  Nothing in the equality needs the inputs to
  be finite.

  Each of the three programs terminates on every weakly fair execution, faults nowhere and leaves its argument
  arrays as launched; the reference's statement is its run's with the result forgotten.  The idealized kernel is the
  kernel's own text read over the extended reals, no operation rewritten, so there is nothing to preserve.
-/
import proofs.«163582_j48747878810305_2_alg».proof.Defs
import proofs.«163582_j48747878810305_2_alg».proof.Proof.Gen.Kernel
import proofs.«163582_j48747878810305_2_alg».proof.Proof.Gen.Kernel.Skeleton
import proofs.«163582_j48747878810305_2_alg».proof.Proof.Gen.Kernel.Launch
import proofs.«163582_j48747878810305_2_alg».proof.Proof.Gen.Kernel.Points
import proofs.«163582_j48747878810305_2_alg».proof.Proof.Gen.Kernel.Frame
import proofs.«163582_j48747878810305_2_alg».proof.Proof.Gen.KernelIdeal
import proofs.«163582_j48747878810305_2_alg».proof.Proof.Gen.KernelIdeal.Skeleton
import proofs.«163582_j48747878810305_2_alg».proof.Proof.Gen.KernelIdeal.Launch
import proofs.«163582_j48747878810305_2_alg».proof.Proof.Gen.KernelIdeal.Points
import proofs.«163582_j48747878810305_2_alg».proof.Proof.Gen.KernelIdeal.Frame
import proofs.«163582_j48747878810305_2_alg».proof.Proof.Gen.ReferenceIdeal
import proofs.«163582_j48747878810305_2_alg».proof.Proof.Gen.ReferenceIdeal.Run
import proofs.«163582_j48747878810305_2_alg».proof.Proof.Gen.ReferenceIdeal.Read
import proofs.«163582_j48747878810305_2_alg».proof.Proof.Gen.Pre_finite_inputs
import proofs.«163582_j48747878810305_2_alg».proof.Proof.KernelRun
import proofs.«163582_j48747878810305_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal :=
  fun m ρ _ => (θ_run Cert.ReferenceIdeal.defs _ _).mono (fun _ h c => (h c).2)
    (Cert.ReferenceIdeal.Value.run (F := Ideal) m ρ)

/-- Both idealized programs, run from memories that agree on the arguments, end with the same result array: the
    kernel's is the last stage's result on the arrays its second kernel is launched on, the reference's its run's
    composed term, and the two are one function of the arguments. -/
theorem algebraic : Cert.algebraic_KernelIdeal_ReferenceIdeal := by
  intro m ρ m' ρ' _ hagree
  refine ⟨fun c => Cert.KernelIdeal.Region1.G (Cert.KernelIdeal.Gen.V2 m ρ) c, ?_, ?_⟩
  · exact (θ_run Cert.KernelIdeal.defs _ _).mono
      (fun r h c => ⟨(h c).1.trans (Cert.Bridge.kernel_value m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v56_eq, a0, a1, a2, a3, a4, a5, a6, a7]
    exact (Cert.Bridge.value_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
